-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S1024x4096 .f32) (main_arg8 : FVec F S1024x4096 .f32) (main_arg9 : FVec F S4096 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S1024x4096 .f32 := Host.absf main_arg8
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S4096x1024 .f32) (main_arg5 : FVec F S1024x4096 .f32) (main_arg6 : FVec F S1024x4096 .f32) (main_arg7 : FVec F S1024x4096 .f32) (main_arg8 : FVec F S1024x4096 .f32) (main_arg9 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S1024x4096 .f32) (main_arg6 : FVec F S1024x4096 .f32) (main_arg7 : FVec F S1024x4096 .f32) (main_arg8 : FVec F S1024x4096 .f32) (main_arg9 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S64x1024 : Shape := ⟨2, ![64, 1024]⟩
abbrev S64x4096 : Shape := ⟨2, ![64, 4096]⟩

abbrev nBuf : Space → Nat
  | .hbm => 17
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S4096, .f32⟩
  | .hbm, ⟨10, _⟩ => ⟨S1024x4096, .bf16⟩
  | .hbm, ⟨11, _⟩ => ⟨S1024x4096, .bf16⟩
  | .hbm, ⟨12, _⟩ => ⟨S1024x4096, .bf16⟩
  | .hbm, ⟨13, _⟩ => ⟨S1024x4096, .bf16⟩
  | .hbm, ⟨14, _⟩ => ⟨S1x4096, .f32⟩
  | .hbm, ⟨15, _⟩ => ⟨S4096x1024, .f32⟩
  | .hbm, ⟨16, _⟩ => ⟨S4096x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S1024x4096, .bf16⟩
  | .local _ .vmem, ⟨11, _⟩ => ⟨S1024x4096, .bf16⟩
  | .local _ .vmem, ⟨12, _⟩ => ⟨S1024x4096, .bf16⟩
  | .local _ .vmem, ⟨13, _⟩ => ⟨S1024x4096, .bf16⟩
  | .local _ .vmem, ⟨14, _⟩ => ⟨S1x4096, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S4096_S1x4096 : S4096.ShapeCasts S1x4096
  inb_S64x1024_S64x1024_0_0 : ∀ a, (![0, 0] : Fin 2 → Nat) a + S64x1024.size a ≤ S64x1024.size a
  h_S64x1024 : 0 < S64x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  slices_S64x4096_o0_0_S64x1024 : S64x4096.Slices ![0, 0] S64x1024
  slices_S64x4096_o0_1024_S64x1024 : S64x4096.Slices ![0, 1024] S64x1024
  slices_S64x4096_o0_2048_S64x1024 : S64x4096.Slices ![0, 2048] S64x1024
  slices_S64x4096_o0_3072_S64x1024 : S64x4096.Slices ![0, 3072] S64x1024
  dot_S64x1024_S1024x4096_S64x4096_1_0_0_1_n_n_wf : DotDims.WF S64x1024 S1024x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S4096x1024.size a
  hwx0_0 : ∀ i : grid0.Coords, EltTy.bits .f32 = 32 ∨ (Rect.block (s := S4096x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S4096x1024.size a
  hwx0_1 : ∀ i : grid0.Coords, EltTy.bits .f32 = 32 ∨ (Rect.block (s := S4096x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S4096x1024.size a
  hwx0_2 : ∀ i : grid0.Coords, EltTy.bits .f32 = 32 ∨ (Rect.block (s := S4096x1024) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S4096x1024.size a
  hwx0_3 : ∀ i : grid0.Coords, EltTy.bits .f32 = 32 ∨ (Rect.block (s := S4096x1024) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S4096x1024.size a
  hwx0_4 : ∀ i : grid0.Coords, EltTy.bits .f32 = 32 ∨ (Rect.block (s := S4096x1024) S64x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x4096.size a ≤ S1024x4096.size a
  hwx0_7 : ∀ i : grid0.Coords, EltTy.bits .bf16 = 32 ∨ (Rect.block (s := S1024x4096) S1024x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x4096.size a ≤ S1024x4096.size a
  hwx0_8 : ∀ i : grid0.Coords, EltTy.bits .bf16 = 32 ∨ (Rect.block (s := S1024x4096) S1024x4096.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x1024.size a ≤ S4096x1024.size a
  hwx0_10 : ∀ i : grid0.Coords, EltTy.bits .f32 = 32 ∨ (Rect.block (s := S4096x1024) S64x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x1024.size a ≤ S4096x1024.size a
  hwx0_11 : ∀ i : grid0.Coords, EltTy.bits .f32 = 32 ∨ (Rect.block (s := S4096x1024) S64x1024.size (cc0_transform_11 i) (hinb0_11 i)).WholeWords (EltTy.packing .f32)

variable [Facts₀]

def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S64x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S64x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.GateBlock.lean ====
/-
  The pre-activations of one block of 64 examples, entry by entry.

  At a grid point the body loads the point's 64 rows of the four activation arrays (x0 … x3, [64, 1024]), the four whole
  weight matrices (w0 … w3, [1024, 4096], already narrowed on the host) and the bias laid as one row (b, [1, 4096]). It
  narrows the activations (the identity on the extended reals), takes the four plain matrix products into zero
  accumulators, adds them from the left and adds the bias row spread over the 64 rows. Entry (p, g) of that [64, 4096]
  value is
      (((Σ_k x0(p,k)·w0(k,g) + Σ_k x1(p,k)·w1(k,g)) + Σ_k x2(p,k)·w2(k,g)) + Σ_k x3(p,k)·w3(k,g)) + b(0,g).
-/
import proofs.«112116_j37014028157116_2_alg».proof.Proof.Gen.KernelIdeal.Skeleton
import proofs.«112116_j37014028157116_2_alg».proof.Proof.LibPlainMatmul
import Idealize.ShloMosaic.Lib.Pipeline.Value
import Idealize.ShloMosaic.Lib.ValueLayout

noncomputable section

open scoped BigOperators

namespace Cert.KernelIdeal.BlockValue

open Cert.KernelIdeal Cert.KernelIdeal.Gen Idealize.ShloMosaic Idealize.ShloMosaic.ValueIdx

/-- One product of the body: the narrowed block of activations times a weight matrix, into zeros, at (p, g). -/
theorem product_apply (x : Vec Ideal S64x1024 .f32) (w : Vec Ideal S1024x4096 .bf16) (p : Fin 64) (g : Fin 4096) :
    matmul (F := Ideal) dot_S64x1024_S1024x4096_S64x4096_1_0_0_1_n_n none (truncf .bf16 x bitsLt_bf16_f32)
        (shapeCast S1024x4096 w shapeCasts_S1024x4096_S1024x4096 : FVec Ideal S1024x4096 .bf16)
        (constant S64x4096 .f32 0x00000000#32) (ix2 p g)
      = ∑ k : Fin 1024, x (ix2 p k) * w (ix2 k g) := by
  rw [shapeCast_self]
  exact Cert.PlainMatmul.plain_apply (M := 64) (K := 1024) (N := 4096) (truncf .bf16 x bitsLt_bf16_f32) w p g

/-- The bias row, cast to its own shape and spread over the 64 rows, at (p, g): the row's entry g. -/
theorem biasRows_apply (b : Vec Ideal S1x4096 .f32) (p : Fin 64) (g : Fin 4096) :
    broadcastTo S64x4096 (shapeCast S1x4096 b shapeCasts_S1x4096_S1x4096) broadcasts_S1x4096_S64x4096 (ix2 p g)
      = b (ix2 (0 : Fin 1) g) := by
  rw [shapeCast_self]
  exact broadcastTo_1b_ab_apply (a := 64) (b := 4096) b broadcasts_S1x4096_S64x4096 p g

/-- The block's pre-activations at (p, g). -/
theorem gates_apply (x0 x1 x2 x3 : Vec Ideal S64x1024 .f32) (w0 w1 w2 w3 : Vec Ideal S1024x4096 .bf16)
    (b : Vec Ideal S1x4096 .f32) (p : Fin 64) (g : Fin 4096) :
    k0_pay3 (F := Ideal) x0 x1 x2 x3 w0 w1 w2 w3 b (ix2 p g)
      = ((((∑ k : Fin 1024, x0 (ix2 p k) * w0 (ix2 k g)) + ∑ k : Fin 1024, x1 (ix2 p k) * w1 (ix2 k g))
          + ∑ k : Fin 1024, x2 (ix2 p k) * w2 (ix2 k g)) + ∑ k : Fin 1024, x3 (ix2 p k) * w3 (ix2 k g))
        + b (ix2 (0 : Fin 1) g) := by
  unfold k0_pay3
  show ((((matmul (F := Ideal) _ none _ _ _ (ix2 p g) + matmul (F := Ideal) _ none _ _ _ (ix2 p g))
      + matmul (F := Ideal) _ none _ _ _ (ix2 p g)) + matmul (F := Ideal) _ none _ _ _ (ix2 p g))
      + broadcastTo _ _ _ (ix2 p g) : EReal) = _
  rw [product_apply x0 w0 p g, product_apply x1 w1 p g, product_apply x2 w2 p g, product_apply x3 w3 p g,
    biasRows_apply b p g]

end Cert.KernelIdeal.BlockValue

end
-- ==== Proof.TrackerSpec.lean ====
/-
  One step of the tracker cell, as functions of the argument arrays, entry by entry.

  The four activation arrays x0 … x3 are [4096, 1024] (row r is one example of the batch), the four weight matrices
  w0 … w3 are [1024, 4096], the bias b has 4096 entries and the previous cell state c is [4096, 1024].

  * `gate … r g`: the pre-activation of example r at gate column g,
        (((Σ_k x0(r,k)·w0(k,g) + Σ_k x1(r,k)·w1(k,g)) + Σ_k x2(r,k)·w2(k,g)) + Σ_k x3(r,k)·w3(k,g)) + b(g),
    the four products added from the left and the bias last.
  * The 4096 gate columns are four chunks of 1024: the candidate a at columns n, the input gate i at n + 1024, the
    forget gate f at n + 2048 and the output gate o at n + 3072 (`col off n`).
  * `cell … (r, n)   = tanh a · σ(i) + σ(f) · c(r, n)`,
    `hidden … (r, n) = σ(o) · tanh (cell … (r, n))`,
    with σ z = 1 / (1 + e^(−z)) on the extended reals.
-/
import Idealize.ShloMosaic.Lib.ValueIdx
import Idealize.ShloMosaic.PureOps.Ideal

noncomputable section

open scoped BigOperators

namespace Cert.TrackerSpec

open Idealize.ShloMosaic Idealize.ShloMosaic.ValueIdx

/-- An activation array or a cell state: [4096, 1024]. -/
abbrev Act := (⟨2, ![4096, 1024]⟩ : Shape).Idx → EReal
/-- A weight matrix: [1024, 4096]. -/
abbrev Wgt := (⟨2, ![1024, 4096]⟩ : Shape).Idx → EReal
/-- The bias: [4096]. -/
abbrev Bias := (⟨1, ![4096]⟩ : Shape).Idx → EReal

/-- Column `n` of the chunk of gate columns that starts at `off`. -/
abbrev col (off : ℕ) (h : off + 1024 ≤ 4096) (n : Fin 1024) : Fin 4096 := ⟨n.val + off, by have := n.isLt; omega⟩

/-- The pre-activation of example `r` at gate column `g`. -/
def gate (x0 x1 x2 x3 : Act) (w0 w1 w2 w3 : Wgt) (b : Bias) (r : Fin 4096) (g : Fin 4096) : EReal :=
  ((((∑ k : Fin 1024, x0 (ix2 r k) * w0 (ix2 k g)) + ∑ k : Fin 1024, x1 (ix2 r k) * w1 (ix2 k g))
      + ∑ k : Fin 1024, x2 (ix2 r k) * w2 (ix2 k g)) + ∑ k : Fin 1024, x3 (ix2 r k) * w3 (ix2 k g)) + b (ix1 g)

/-- The new cell state: tanh(a)·σ(i) + σ(f)·c. -/
def cell (x0 x1 x2 x3 c : Act) (w0 w1 w2 w3 : Wgt) (b : Bias) : Act := fun i =>
  Ideal.tanh (gate x0 x1 x2 x3 w0 w1 w2 w3 b (i 0) (col 0 (by decide) (i 1)))
      * Ideal.logistic (gate x0 x1 x2 x3 w0 w1 w2 w3 b (i 0) (col 1024 (by decide) (i 1)))
    + Ideal.logistic (gate x0 x1 x2 x3 w0 w1 w2 w3 b (i 0) (col 2048 (by decide) (i 1))) * c i

/-- The new hidden state: σ(o)·tanh(new cell state). -/
def hidden (x0 x1 x2 x3 c : Act) (w0 w1 w2 w3 : Wgt) (b : Bias) : Act := fun i =>
  Ideal.logistic (gate x0 x1 x2 x3 w0 w1 w2 w3 b (i 0) (col 3072 (by decide) (i 1)))
    * Ideal.tanh (cell x0 x1 x2 x3 c w0 w1 w2 w3 b i)

end Cert.TrackerSpec

end
-- ==== Proof.BlockIsSpec.lean ====
/-
  What one grid point stores is the specification on the point's 64 rows.

  Let the loaded blocks be rows r0 … r0 + 63 of the whole activation arrays and of the previous cell state, the loaded
  weights the whole weight matrices, and the loaded bias row the bias (the hypotheses `Rows`, `Same`, `Row0` below). Then
  the block's pre-activation at (p, g) is `TrackerSpec.gate` at (r0 + p, g) (`blockGate`), the value stored to the
  cell-state window at (p, n) is `TrackerSpec.cell` at (r0 + p, n) (`cellBlock`), and the value stored to the
  hidden-state window is `TrackerSpec.hidden` there (`hiddenBlock`): the column slices of the block's pre-activations
  at 0, 1024, 2048 and 3072 are the four gate chunks.
-/
import proofs.«112116_j37014028157116_2_alg».proof.Proof.Gen.KernelIdeal.Value
import proofs.«112116_j37014028157116_2_alg».proof.Proof.GateBlock
import proofs.«112116_j37014028157116_2_alg».proof.Proof.TrackerSpec

noncomputable section

open scoped BigOperators

namespace Cert.KernelIdeal.BlockValue

open Cert.KernelIdeal Cert.KernelIdeal.Gen Idealize.ShloMosaic Idealize.ShloMosaic.ValueIdx
open Cert.TrackerSpec

/-- Row `p` of the block that starts at row `r0`, as a row of the whole array. -/
abbrev row (r0 : ℕ) (hr : r0 + 64 ≤ 4096) (p : Fin 64) : Fin 4096 := ⟨r0 + p.val, by have := p.isLt; omega⟩

/-- A [64, 1024] block is rows r0 … r0 + 63 of a [4096, 1024] array. -/
def Rows (r0 : ℕ) (hr : r0 + 64 ≤ 4096) (P : Vec Ideal S64x1024 .f32) (A : Act) : Prop :=
  ∀ (p : Fin 64) (k : Fin 1024), P (ix2 p k) = A (ix2 (row r0 hr p) k)

/-- A loaded weight block is the whole weight matrix. -/
def Same (P : Vec Ideal S1024x4096 .bf16) (W : Wgt) : Prop :=
  ∀ (k : Fin 1024) (g : Fin 4096), P (ix2 k g) = W (ix2 k g)

/-- The loaded bias row is the bias. -/
def Row0 (P : Vec Ideal S1x4096 .f32) (B : Bias) : Prop :=
  ∀ g : Fin 4096, P (ix2 (0 : Fin 1) g) = B (ix1 g)

variable (A0 A1 A2 A3 A4 : Act) (W0 W1 W2 W3 : Wgt) (B : Bias)
variable (P0 P1 P2 P3 P9 : Vec Ideal S64x1024 .f32) (P4 P5 P6 P7 : Vec Ideal S1024x4096 .bf16) (P8 : Vec Ideal S1x4096 .f32)
variable (r0 : ℕ) (hr : r0 + 64 ≤ 4096)

/-- The block's pre-activation at (p, g) is the whole batch's at (r0 + p, g). -/
theorem blockGate (h0 : Rows r0 hr P0 A0) (h1 : Rows r0 hr P1 A1) (h2 : Rows r0 hr P2 A2) (h3 : Rows r0 hr P3 A3)
    (h4 : Same P4 W0) (h5 : Same P5 W1) (h6 : Same P6 W2) (h7 : Same P7 W3) (h8 : Row0 P8 B)
    (p : Fin 64) (g : Fin 4096) :
    k0_pay3 (F := Ideal) P0 P1 P2 P3 P4 P5 P6 P7 P8 (ix2 p g) = gate A0 A1 A2 A3 W0 W1 W2 W3 B (row r0 hr p) g := by
  rw [gates_apply]
  unfold gate
  simp only [h0 p, h1 p, h2 p, h3 p, h4 _ g, h5 _ g, h6 _ g, h7 _ g, h8 g]

/-- The pre-activation where a column slice at offset `off` of the block reads it. -/
theorem blockGate_at (h0 : Rows r0 hr P0 A0) (h1 : Rows r0 hr P1 A1) (h2 : Rows r0 hr P2 A2) (h3 : Rows r0 hr P3 A3)
    (h4 : Same P4 W0) (h5 : Same P5 W1) (h6 : Same P6 W2) (h7 : Same P7 W3) (h8 : Row0 P8 B)
    (p : Fin 64) (n : Fin 1024) (j : S64x4096.Idx) (off : ℕ) (h : off + 1024 ≤ 4096)
    (e0 : (j 0).val = p.val) (e1 : (j 1).val = n.val + off) :
    k0_pay3 (F := Ideal) P0 P1 P2 P3 P4 P5 P6 P7 P8 j
      = gate A0 A1 A2 A3 W0 W1 W2 W3 B (row r0 hr p) (col off h n) := by
  have ej : j = ix2 p (col off h n) := by
    funext a
    match a with
    | ⟨0, _⟩ => exact Fin.ext e0
    | ⟨1, _⟩ => exact Fin.ext e1
  rw [ej]
  exact blockGate A0 A1 A2 A3 W0 W1 W2 W3 B P0 P1 P2 P3 P4 P5 P6 P7 P8 r0 hr h0 h1 h2 h3 h4 h5 h6 h7 h8 _ _

/-- The value stored to the cell-state window, at (p, n): the new cell state at (r0 + p, n). -/
theorem cellBlock (h0 : Rows r0 hr P0 A0) (h1 : Rows r0 hr P1 A1) (h2 : Rows r0 hr P2 A2) (h3 : Rows r0 hr P3 A3)
    (h4 : Same P4 W0) (h5 : Same P5 W1) (h6 : Same P6 W2) (h7 : Same P7 W3) (h8 : Row0 P8 B) (h9 : Rows r0 hr P9 A4)
    (p : Fin 64) (n : Fin 1024) :
    Value.E11 (F := Ideal) P0 P1 P2 P3 P4 P5 P6 P7 P8 P9 (ix2 p n)
      = cell A0 A1 A2 A3 A4 W0 W1 W2 W3 B (ix2 (row r0 hr p) n) := by
  have e9 : Value.ix11_3 (ix2 p n) = ix2 p n := funext fun a => match a with | ⟨0, _⟩ => rfl | ⟨1, _⟩ => rfl
  show FloatOps.addf (FloatOps.mulf (FloatOps.tanh (k0_pay3 (F := Ideal) P0 P1 P2 P3 P4 P5 P6 P7 P8 (Value.ix11_0 (ix2 p n))))
      (FloatOps.logistic (k0_pay3 (F := Ideal) P0 P1 P2 P3 P4 P5 P6 P7 P8 (Value.ix11_1 (ix2 p n)))))
      (FloatOps.mulf (FloatOps.logistic (k0_pay3 (F := Ideal) P0 P1 P2 P3 P4 P5 P6 P7 P8 (Value.ix11_2 (ix2 p n))))
        (P9 (Value.ix11_3 (ix2 p n)))) = _
  rw [blockGate_at A0 A1 A2 A3 W0 W1 W2 W3 B P0 P1 P2 P3 P4 P5 P6 P7 P8 r0 hr h0 h1 h2 h3 h4 h5 h6 h7 h8 p n (Value.ix11_0 (ix2 p n)) 0 (by decide) rfl rfl,
    blockGate_at A0 A1 A2 A3 W0 W1 W2 W3 B P0 P1 P2 P3 P4 P5 P6 P7 P8 r0 hr h0 h1 h2 h3 h4 h5 h6 h7 h8 p n (Value.ix11_1 (ix2 p n)) 1024 (by decide) rfl rfl,
    blockGate_at A0 A1 A2 A3 W0 W1 W2 W3 B P0 P1 P2 P3 P4 P5 P6 P7 P8 r0 hr h0 h1 h2 h3 h4 h5 h6 h7 h8 p n (Value.ix11_2 (ix2 p n)) 2048 (by decide) rfl rfl,
    e9, h9 p n]
  rfl

/-- The value stored to the hidden-state window, at (p, n): the new hidden state at (r0 + p, n). -/
theorem hiddenBlock (h0 : Rows r0 hr P0 A0) (h1 : Rows r0 hr P1 A1) (h2 : Rows r0 hr P2 A2) (h3 : Rows r0 hr P3 A3)
    (h4 : Same P4 W0) (h5 : Same P5 W1) (h6 : Same P6 W2) (h7 : Same P7 W3) (h8 : Row0 P8 B) (h9 : Rows r0 hr P9 A4)
    (p : Fin 64) (n : Fin 1024) :
    Value.E10 (F := Ideal) P0 P1 P2 P3 P4 P5 P6 P7 P8 P9 (ix2 p n)
      = hidden A0 A1 A2 A3 A4 W0 W1 W2 W3 B (ix2 (row r0 hr p) n) := by
  have e9 : Value.ix10_4 (ix2 p n) = ix2 p n := funext fun a => match a with | ⟨0, _⟩ => rfl | ⟨1, _⟩ => rfl
  show FloatOps.mulf (FloatOps.logistic (k0_pay3 (F := Ideal) P0 P1 P2 P3 P4 P5 P6 P7 P8 (Value.ix10_0 (ix2 p n))))
      (FloatOps.tanh (FloatOps.addf
        (FloatOps.mulf (FloatOps.tanh (k0_pay3 (F := Ideal) P0 P1 P2 P3 P4 P5 P6 P7 P8 (Value.ix10_1 (ix2 p n))))
          (FloatOps.logistic (k0_pay3 (F := Ideal) P0 P1 P2 P3 P4 P5 P6 P7 P8 (Value.ix10_2 (ix2 p n)))))
        (FloatOps.mulf (FloatOps.logistic (k0_pay3 (F := Ideal) P0 P1 P2 P3 P4 P5 P6 P7 P8 (Value.ix10_3 (ix2 p n))))
          (P9 (Value.ix10_4 (ix2 p n)))))) = _
  rw [blockGate_at A0 A1 A2 A3 W0 W1 W2 W3 B P0 P1 P2 P3 P4 P5 P6 P7 P8 r0 hr h0 h1 h2 h3 h4 h5 h6 h7 h8 p n (Value.ix10_0 (ix2 p n)) 3072 (by decide) rfl rfl,
    blockGate_at A0 A1 A2 A3 W0 W1 W2 W3 B P0 P1 P2 P3 P4 P5 P6 P7 P8 r0 hr h0 h1 h2 h3 h4 h5 h6 h7 h8 p n (Value.ix10_1 (ix2 p n)) 0 (by decide) rfl rfl,
    blockGate_at A0 A1 A2 A3 W0 W1 W2 W3 B P0 P1 P2 P3 P4 P5 P6 P7 P8 r0 hr h0 h1 h2 h3 h4 h5 h6 h7 h8 p n (Value.ix10_2 (ix2 p n)) 1024 (by decide) rfl rfl,
    blockGate_at A0 A1 A2 A3 W0 W1 W2 W3 B P0 P1 P2 P3 P4 P5 P6 P7 P8 r0 hr h0 h1 h2 h3 h4 h5 h6 h7 h8 p n (Value.ix10_3 (ix2 p n)) 2048 (by decide) rfl rfl,
    e9, h9 p n]
  rfl

/-- `cellBlock` for a block index and the array index over it given by their coordinates. -/
theorem cellBlock_at (h0 : Rows r0 hr P0 A0) (h1 : Rows r0 hr P1 A1) (h2 : Rows r0 hr P2 A2) (h3 : Rows r0 hr P3 A3)
    (h4 : Same P4 W0) (h5 : Same P5 W1) (h6 : Same P6 W2) (h7 : Same P7 W3) (h8 : Row0 P8 B) (h9 : Rows r0 hr P9 A4)
    (y : S64x1024.Idx) (i : (⟨2, ![4096, 1024]⟩ : Shape).Idx)
    (e0 : (i 0).val = r0 + (y 0).val) (e1 : (i 1).val = (y 1).val) :
    Value.E11 (F := Ideal) P0 P1 P2 P3 P4 P5 P6 P7 P8 P9 y = cell A0 A1 A2 A3 A4 W0 W1 W2 W3 B i := by
  obtain ⟨p, n, rfl⟩ : ∃ (p : Fin 64) (n : Fin 1024), y = ix2 p n := ⟨y 0, y 1, eq_ix2 y⟩
  have ei : i = ix2 (row r0 hr p) n := funext fun a => match a with
    | ⟨0, _⟩ => Fin.ext e0
    | ⟨1, _⟩ => Fin.ext e1
  rw [ei]
  exact cellBlock A0 A1 A2 A3 A4 W0 W1 W2 W3 B P0 P1 P2 P3 P9 P4 P5 P6 P7 P8 r0 hr h0 h1 h2 h3 h4 h5 h6 h7 h8 h9 p n

/-- `hiddenBlock` for a block index and the array index over it given by their coordinates. -/
theorem hiddenBlock_at (h0 : Rows r0 hr P0 A0) (h1 : Rows r0 hr P1 A1) (h2 : Rows r0 hr P2 A2) (h3 : Rows r0 hr P3 A3)
    (h4 : Same P4 W0) (h5 : Same P5 W1) (h6 : Same P6 W2) (h7 : Same P7 W3) (h8 : Row0 P8 B) (h9 : Rows r0 hr P9 A4)
    (y : S64x1024.Idx) (i : (⟨2, ![4096, 1024]⟩ : Shape).Idx)
    (e0 : (i 0).val = r0 + (y 0).val) (e1 : (i 1).val = (y 1).val) :
    Value.E10 (F := Ideal) P0 P1 P2 P3 P4 P5 P6 P7 P8 P9 y = hidden A0 A1 A2 A3 A4 W0 W1 W2 W3 B i := by
  obtain ⟨p, n, rfl⟩ : ∃ (p : Fin 64) (n : Fin 1024), y = ix2 p n := ⟨y 0, y 1, eq_ix2 y⟩
  have ei : i = ix2 (row r0 hr p) n := funext fun a => match a with
    | ⟨0, _⟩ => Fin.ext e0
    | ⟨1, _⟩ => Fin.ext e1
  rw [ei]
  exact hiddenBlock A0 A1 A2 A3 A4 W0 W1 W2 W3 B P0 P1 P2 P3 P9 P4 P5 P6 P7 P8 r0 hr h0 h1 h2 h3 h4 h5 h6 h7 h8 h9 p n

end Cert.KernelIdeal.BlockValue

end
-- ==== Proof.KernelArrays.lean ====
/-
  From the blocks to the two result arrays.

  The grid has 64 points; point t stages rows 64·t … 64·t + 63 of the four activation arrays and of the previous cell
  state (`rowsOf`), every point stages the whole of each narrowed weight matrix (`weightOf`; narrowing is the identity on
  the extended reals) and of the bias laid as a [1, 4096] row (`biasOf`), and writes its two [64, 1024] results back to
  rows 64·t … 64·t + 63 of the result arrays. By `BlockIsSpec` what point t writes back is the specification read
  through the point's block (`hidden_flushed`, `cell_flushed`); every row r lies in the block of point r / 64 (`cover_h`,
  `cover_c`); so after the run the two result arrays are `TrackerSpec.hidden` and `TrackerSpec.cell` of the argument
  arrays (`final_h`, `final_c`, `run`).
-/
import proofs.«112116_j37014028157116_2_alg».proof.Proof.Gen.KernelIdeal.Value
import proofs.«112116_j37014028157116_2_alg».proof.Proof.BlockIsSpec
import Idealize.ShloMosaic.Lib.Pipeline.Value
import Idealize.ShloMosaic.Lib.ValueLayout
import Idealize.ShloMosaic.Lib.StableHlo.Run

noncomputable section

open scoped BigOperators

namespace Cert.KernelIdeal.ArrayValue

open Cert.KernelIdeal Cert.KernelIdeal.Gen Cert.KernelIdeal.BlockValue
open Idealize.ShloMosaic Idealize.ShloMosaic.TcCoe Idealize.SL.Sem Idealize.ShloMosaic.ValueIdx Idealize.ShloMosaic.StableHlo
open Idealize.ShloMosaic.Pipeline (Dat)
open Cert.TrackerSpec

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows (the four activations, the previous cell state and
    the two results) sit at block row t and block column 0, the whole-array windows (weights and bias) at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Point t's 64 rows lie inside the 4096. -/
theorem rows_le (t : Fin cfg0.N) : 64 * t.val + 64 ≤ 4096 := by
  have h : t.val < 64 := Nat.lt_of_lt_of_eq t.isLt N_0
  omega

/-! ## What the region finds in the arrays the host wrote -/

theorem V_w0 (c : Dev nD) : (V m c main_v0 : S1024x4096.Idx → EReal) = (m ((c : Thread nD τ).loc main_arg5) : S1024x4096.Idx → EReal) := by
  dsimp only [Gen.V, Gen.hostOps0]; after_results; rfl
theorem V_w1 (c : Dev nD) : (V m c main_v1 : S1024x4096.Idx → EReal) = (m ((c : Thread nD τ).loc main_arg6) : S1024x4096.Idx → EReal) := by
  dsimp only [Gen.V, Gen.hostOps0]; after_results; rfl
theorem V_w2 (c : Dev nD) : (V m c main_v2 : S1024x4096.Idx → EReal) = (m ((c : Thread nD τ).loc main_arg7) : S1024x4096.Idx → EReal) := by
  dsimp only [Gen.V, Gen.hostOps0]; after_results; rfl
theorem V_w3 (c : Dev nD) : (V m c main_v3 : S1024x4096.Idx → EReal) = (m ((c : Thread nD τ).loc main_arg8) : S1024x4096.Idx → EReal) := by
  dsimp only [Gen.V, Gen.hostOps0]; after_results; rfl
theorem V_b (c : Dev nD) : (V m c main_v4 : S1x4096.Idx → EReal)
    = shapeCast S1x4096 (m ((c : Thread nD τ).loc main_arg9) : S4096.Idx → EReal) shapeCasts_S4096_S1x4096 := by
  dsimp only [Gen.V, Gen.hostOps0]; after_results; rfl

/-! ## The blocks a point stages -/

/-- Window 0's block at point t is rows 64·t … 64·t + 63 of its argument. -/
theorem rowsOf0 (c : Dev nD) (t : Fin cfg0.N) :
    Rows (64 * t.val) (rows_le t) (iblk m c 0 t) (m ((c : Thread nD τ).loc main_arg0)) := by
  intro p k
  obtain ⟨e0, e1⟩ := (idx_facts t).1
  show V m c main_arg0 _ = _
  rw [V_main_arg0 m c]
  congr 1
  funext a
  apply Fin.ext
  match a with
  | ⟨0, _⟩ => show win0_0.index t (0 : Fin 2) * 64 + 1 * p.val = 64 * t.val + p.val; rw [e0]; omega
  | ⟨1, _⟩ => show win0_0.index t (1 : Fin 2) * 1024 + 1 * k.val = k.val; rw [e1]; omega

/-- Window 1's block at point t is rows 64·t … 64·t + 63 of its argument. -/
theorem rowsOf1 (c : Dev nD) (t : Fin cfg0.N) :
    Rows (64 * t.val) (rows_le t) (iblk m c 1 t) (m ((c : Thread nD τ).loc main_arg1)) := by
  intro p k
  obtain ⟨e0, e1⟩ := (idx_facts t).2.1
  show V m c main_arg1 _ = _
  rw [V_main_arg1 m c]
  congr 1
  funext a
  apply Fin.ext
  match a with
  | ⟨0, _⟩ => show win0_1.index t (0 : Fin 2) * 64 + 1 * p.val = 64 * t.val + p.val; rw [e0]; omega
  | ⟨1, _⟩ => show win0_1.index t (1 : Fin 2) * 1024 + 1 * k.val = k.val; rw [e1]; omega

/-- Window 2's block at point t is rows 64·t … 64·t + 63 of its argument. -/
theorem rowsOf2 (c : Dev nD) (t : Fin cfg0.N) :
    Rows (64 * t.val) (rows_le t) (iblk m c 2 t) (m ((c : Thread nD τ).loc main_arg2)) := by
  intro p k
  obtain ⟨e0, e1⟩ := (idx_facts t).2.2.1
  show V m c main_arg2 _ = _
  rw [V_main_arg2 m c]
  congr 1
  funext a
  apply Fin.ext
  match a with
  | ⟨0, _⟩ => show win0_2.index t (0 : Fin 2) * 64 + 1 * p.val = 64 * t.val + p.val; rw [e0]; omega
  | ⟨1, _⟩ => show win0_2.index t (1 : Fin 2) * 1024 + 1 * k.val = k.val; rw [e1]; omega

/-- Window 3's block at point t is rows 64·t … 64·t + 63 of its argument. -/
theorem rowsOf3 (c : Dev nD) (t : Fin cfg0.N) :
    Rows (64 * t.val) (rows_le t) (iblk m c 3 t) (m ((c : Thread nD τ).loc main_arg3)) := by
  intro p k
  obtain ⟨e0, e1⟩ := (idx_facts t).2.2.2.1
  show V m c main_arg3 _ = _
  rw [V_main_arg3 m c]
  congr 1
  funext a
  apply Fin.ext
  match a with
  | ⟨0, _⟩ => show win0_3.index t (0 : Fin 2) * 64 + 1 * p.val = 64 * t.val + p.val; rw [e0]; omega
  | ⟨1, _⟩ => show win0_3.index t (1 : Fin 2) * 1024 + 1 * k.val = k.val; rw [e1]; omega

/-- Window 4's block at point t is rows 64·t … 64·t + 63 of its argument. -/
theorem rowsOf4 (c : Dev nD) (t : Fin cfg0.N) :
    Rows (64 * t.val) (rows_le t) (iblk m c 4 t) (m ((c : Thread nD τ).loc main_arg4)) := by
  intro p k
  obtain ⟨e0, e1⟩ := (idx_facts t).2.2.2.2.1
  show V m c main_arg4 _ = _
  rw [V_main_arg4 m c]
  congr 1
  funext a
  apply Fin.ext
  match a with
  | ⟨0, _⟩ => show win0_4.index t (0 : Fin 2) * 64 + 1 * p.val = 64 * t.val + p.val; rw [e0]; omega
  | ⟨1, _⟩ => show win0_4.index t (1 : Fin 2) * 1024 + 1 * k.val = k.val; rw [e1]; omega

/-- Window 5's block at every point is the whole weight matrix of argument 5. -/
theorem weightOf0 (c : Dev nD) (t : Fin cfg0.N) :
    Same (iblk m c 5 t) (m ((c : Thread nD τ).loc main_arg5)) := by
  intro k g
  obtain ⟨e0, e1⟩ := (idx_facts t).2.2.2.2.2.1
  show V m c main_v0 _ = _
  rw [V_w0 m c]
  congr 1
  funext a
  apply Fin.ext
  match a with
  | ⟨0, _⟩ => show win0_5.index t (0 : Fin 2) * 1024 + 1 * k.val = k.val; rw [e0]; omega
  | ⟨1, _⟩ => show win0_5.index t (1 : Fin 2) * 4096 + 1 * g.val = g.val; rw [e1]; omega

/-- Window 6's block at every point is the whole weight matrix of argument 6. -/
theorem weightOf1 (c : Dev nD) (t : Fin cfg0.N) :
    Same (iblk m c 6 t) (m ((c : Thread nD τ).loc main_arg6)) := by
  intro k g
  obtain ⟨e0, e1⟩ := (idx_facts t).2.2.2.2.2.2.1
  show V m c main_v1 _ = _
  rw [V_w1 m c]
  congr 1
  funext a
  apply Fin.ext
  match a with
  | ⟨0, _⟩ => show win0_6.index t (0 : Fin 2) * 1024 + 1 * k.val = k.val; rw [e0]; omega
  | ⟨1, _⟩ => show win0_6.index t (1 : Fin 2) * 4096 + 1 * g.val = g.val; rw [e1]; omega

/-- Window 7's block at every point is the whole weight matrix of argument 7. -/
theorem weightOf2 (c : Dev nD) (t : Fin cfg0.N) :
    Same (iblk m c 7 t) (m ((c : Thread nD τ).loc main_arg7)) := by
  intro k g
  obtain ⟨e0, e1⟩ := (idx_facts t).2.2.2.2.2.2.2.1
  show V m c main_v2 _ = _
  rw [V_w2 m c]
  congr 1
  funext a
  apply Fin.ext
  match a with
  | ⟨0, _⟩ => show win0_7.index t (0 : Fin 2) * 1024 + 1 * k.val = k.val; rw [e0]; omega
  | ⟨1, _⟩ => show win0_7.index t (1 : Fin 2) * 4096 + 1 * g.val = g.val; rw [e1]; omega

/-- Window 8's block at every point is the whole weight matrix of argument 8. -/
theorem weightOf3 (c : Dev nD) (t : Fin cfg0.N) :
    Same (iblk m c 8 t) (m ((c : Thread nD τ).loc main_arg8)) := by
  intro k g
  obtain ⟨e0, e1⟩ := (idx_facts t).2.2.2.2.2.2.2.2.1
  show V m c main_v3 _ = _
  rw [V_w3 m c]
  congr 1
  funext a
  apply Fin.ext
  match a with
  | ⟨0, _⟩ => show win0_8.index t (0 : Fin 2) * 1024 + 1 * k.val = k.val; rw [e0]; omega
  | ⟨1, _⟩ => show win0_8.index t (1 : Fin 2) * 4096 + 1 * g.val = g.val; rw [e1]; omega

/-- Window 9's block at every point is the bias laid as one row. -/
theorem biasOf (c : Dev nD) (t : Fin cfg0.N) :
    Row0 (iblk m c 9 t) (m ((c : Thread nD τ).loc main_arg9)) := by
  intro g
  obtain ⟨e0, e1⟩ := (idx_facts t).2.2.2.2.2.2.2.2.2.1
  show V m c main_v4 _ = _
  rw [V_b m c]
  refine Eq.trans (congrArg _ ?_) (shapeCast_a_1a_apply (a := 4096) _ shapeCasts_S4096_S1x4096 (0 : Fin 1) g)
  funext a
  apply Fin.ext
  match a with
  | ⟨0, _⟩ => show win0_9.index t (0 : Fin 2) * 1 + 1 * 0 = 0; rw [e0]
  | ⟨1, _⟩ => show win0_9.index t (1 : Fin 2) * 4096 + 1 * g.val = g.val; rw [e1]; omega

/-! ## What a point leaves in its two result blocks -/

/-- The hidden-state block after the body, entry by entry, in the body's loads. -/
theorem hiddenOut_apply (x0 x1 x2 x3 x4 : Vec Ideal S64x1024 .f32) (x5 x6 x7 x8 : Vec Ideal S1024x4096 .bf16)
    (x9 : Vec Ideal S1x4096 .f32) (y : S64x1024.Idx) :
    out0_10 x0 x1 x2 x3 x4 x5 x6 x7 x8 x9 y = Value.E10 x0 x1 x2 x3 x5 x6 x7 x8 x9 x4 y := by
  unfold out0_10
  rw [Value.canon10_eq]
  simp only [View.ld_unit_zero (S := S64x1024) hz, View.ld_unit_zero (S := S1024x4096) hz, View.ld_unit_zero (S := S1x4096) hz]

/-- The cell-state block after the body, entry by entry, in the body's loads. -/
theorem cellOut_apply (x0 x1 x2 x3 x4 : Vec Ideal S64x1024 .f32) (x5 x6 x7 x8 : Vec Ideal S1024x4096 .bf16)
    (x9 : Vec Ideal S1x4096 .f32) (y : S64x1024.Idx) :
    out0_11 x0 x1 x2 x3 x4 x5 x6 x7 x8 x9 y = Value.E11 x0 x1 x2 x3 x5 x6 x7 x8 x9 x4 y := by
  unfold out0_11
  rw [Value.canon11_eq]
  simp only [View.ld_unit_zero (S := S64x1024) hz, View.ld_unit_zero (S := S1024x4096) hz, View.ld_unit_zero (S := S1x4096) hz]

/-- What point t writes back to the hidden-state array is the new hidden state read through the point's block. -/
theorem hidden_flushed (c : Dev nD) (t : Fin cfg0.N) :
    (dats m 0 c).flushed 10 t = ((cfg0.win 10).blk t).view.read (Elt Ideal)
      (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) : S4096x1024.Idx → EReal) := by
  rw [Value.flushed10]
  funext y
  show out0_10 (iblk m c 0 t) (iblk m c 1 t) (iblk m c 2 t) (iblk m c 3 t) (iblk m c 4 t) (iblk m c 5 t) (iblk m c 6 t) (iblk m c 7 t) (iblk m c 8 t) (iblk m c 9 t) y = _
  refine (hiddenOut_apply (iblk m c 0 t) (iblk m c 1 t) (iblk m c 2 t) (iblk m c 3 t) (iblk m c 4 t) (iblk m c 5 t) (iblk m c 6 t) (iblk m c 7 t) (iblk m c 8 t) (iblk m c 9 t) y).trans ?_
  obtain ⟨e0, e1⟩ := (idx_facts t).2.2.2.2.2.2.2.2.2.2.1
  refine hiddenBlock_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (iblk m c 0 t) (iblk m c 1 t) (iblk m c 2 t) (iblk m c 3 t) (iblk m c 4 t) (iblk m c 5 t) (iblk m c 6 t) (iblk m c 7 t) (iblk m c 8 t) (iblk m c 9 t)
    (64 * t.val) (rows_le t) (rowsOf0 m c t) (rowsOf1 m c t) (rowsOf2 m c t) (rowsOf3 m c t) (weightOf0 m c t) (weightOf1 m c t) (weightOf2 m c t) (weightOf3 m c t) (biasOf m c t) (rowsOf4 m c t) y _ ?_ ?_
  · show win0_10.index t (0 : Fin 2) * 64 + 1 * (y 0).val = 64 * t.val + (y 0).val; rw [e0]; omega
  · show win0_10.index t (1 : Fin 2) * 1024 + 1 * (y 1).val = (y 1).val; rw [e1]; omega

/-- What point t writes back to the cell-state array is the new cell state read through the point's block. -/
theorem cell_flushed (c : Dev nD) (t : Fin cfg0.N) :
    (dats m 0 c).flushed 11 t = ((cfg0.win 11).blk t).view.read (Elt Ideal)
      (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) : S4096x1024.Idx → EReal) := by
  rw [Value.flushed11]
  funext y
  show out0_11 (iblk m c 0 t) (iblk m c 1 t) (iblk m c 2 t) (iblk m c 3 t) (iblk m c 4 t) (iblk m c 5 t) (iblk m c 6 t) (iblk m c 7 t) (iblk m c 8 t) (iblk m c 9 t) y = _
  refine (cellOut_apply (iblk m c 0 t) (iblk m c 1 t) (iblk m c 2 t) (iblk m c 3 t) (iblk m c 4 t) (iblk m c 5 t) (iblk m c 6 t) (iblk m c 7 t) (iblk m c 8 t) (iblk m c 9 t) y).trans ?_
  obtain ⟨e0, e1⟩ := (idx_facts t).2.2.2.2.2.2.2.2.2.2.2
  refine cellBlock_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (iblk m c 0 t) (iblk m c 1 t) (iblk m c 2 t) (iblk m c 3 t) (iblk m c 4 t) (iblk m c 5 t) (iblk m c 6 t) (iblk m c 7 t) (iblk m c 8 t) (iblk m c 9 t)
    (64 * t.val) (rows_le t) (rowsOf0 m c t) (rowsOf1 m c t) (rowsOf2 m c t) (rowsOf3 m c t) (weightOf0 m c t) (weightOf1 m c t) (weightOf2 m c t) (weightOf3 m c t) (biasOf m c t) (rowsOf4 m c t) y _ ?_ ?_
  · show win0_11.index t (0 : Fin 2) * 64 + 1 * (y 0).val = 64 * t.val + (y 0).val; rw [e0]; omega
  · show win0_11.index t (1 : Fin 2) * 1024 + 1 * (y 1).val = (y 1).val; rw [e1]; omega

/-! ## The blocks cover the result arrays -/

/-- An index of the hidden-state array is in point t's block iff each coordinate is in the block's range on its axis. -/
theorem mem_blk_h (t : Fin cfg0.N) (i : S4096x1024.Idx) :
    i ∈ ((cfg0.win 10).blk t).view.set ↔ ∀ a : Fin 2, win0_10.index t a * S64x1024.size a ≤ (i a).val
      ∧ (i a).val < win0_10.index t a * S64x1024.size a + S64x1024.size a := by
  show i ∈ ((View.whole main_v5_0).slice (win0_10.rect t)).set ↔ _
  rw [View.set_slice_whole, Rect.mem_set_unit]
  exact Iff.rfl

/-- The same for the cell-state array. -/
theorem mem_blk_c (t : Fin cfg0.N) (i : S4096x1024.Idx) :
    i ∈ ((cfg0.win 11).blk t).view.set ↔ ∀ a : Fin 2, win0_11.index t a * S64x1024.size a ≤ (i a).val
      ∧ (i a).val < win0_11.index t a * S64x1024.size a + S64x1024.size a := by
  show i ∈ ((View.whole main_v5_1).slice (win0_11.rect t)).set ↔ _
  rw [View.set_slice_whole, Rect.mem_set_unit]
  exact Iff.rfl

/-- The point whose block holds row r: r / 64. -/
def pointOf (i : S4096x1024.Idx) : Fin cfg0.N :=
  ⟨(i 0).val / 64, by
    have h : (i 0).val < 4096 := (i 0).isLt
    rw [show cfg0.N = 64 from N_0]; omega⟩

/-- Every index of the hidden-state array lies in the block of the point of its row. -/
theorem cover_h (i : S4096x1024.Idx) :
    ∃ t : Fin cfg0.N, (cfg0.win 10).flush t = true ∧ i ∈ ((cfg0.win 10).blk t).view.set := by
  refine ⟨pointOf i, flush0_10 _, ?_⟩
  rw [mem_blk_h]
  obtain ⟨e0, e1⟩ := (idx_facts (pointOf i)).2.2.2.2.2.2.2.2.2.2.1
  have hv : (pointOf i).val = (i 0).val / 64 := rfl
  have h1 : (i 1).val < 1024 := (i 1).isLt
  intro a
  match a with
  | ⟨0, _⟩ =>
    show win0_10.index (pointOf i) (0 : Fin 2) * 64 ≤ (i 0).val ∧ (i 0).val < win0_10.index (pointOf i) (0 : Fin 2) * 64 + 64
    rw [e0, hv]; omega
  | ⟨1, _⟩ =>
    show win0_10.index (pointOf i) (1 : Fin 2) * 1024 ≤ (i 1).val ∧ (i 1).val < win0_10.index (pointOf i) (1 : Fin 2) * 1024 + 1024
    rw [e1]; omega

/-- Every index of the cell-state array lies in the block of the point of its row. -/
theorem cover_c (i : S4096x1024.Idx) :
    ∃ t : Fin cfg0.N, (cfg0.win 11).flush t = true ∧ i ∈ ((cfg0.win 11).blk t).view.set := by
  refine ⟨pointOf i, flush0_11 _, ?_⟩
  rw [mem_blk_c]
  obtain ⟨e0, e1⟩ := (idx_facts (pointOf i)).2.2.2.2.2.2.2.2.2.2.2
  have hv : (pointOf i).val = (i 0).val / 64 := rfl
  have h1 : (i 1).val < 1024 := (i 1).isLt
  intro a
  match a with
  | ⟨0, _⟩ =>
    show win0_11.index (pointOf i) (0 : Fin 2) * 64 ≤ (i 0).val ∧ (i 0).val < win0_11.index (pointOf i) (0 : Fin 2) * 64 + 64
    rw [e0, hv]; omega
  | ⟨1, _⟩ =>
    show win0_11.index (pointOf i) (1 : Fin 2) * 1024 ≤ (i 1).val ∧ (i 1).val < win0_11.index (pointOf i) (1 : Fin 2) * 1024 + 1024
    rw [e1]; omega

/-! ## The result arrays after the run -/

/-- The hidden-state array ends holding the new hidden state of the argument arrays. -/
theorem final_h (c : Dev nD) : (dats m 0 c).arrAt 10 cfg0.N = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (fun t _ => hidden_flushed m c t) cover_h

/-- The cell-state array ends holding the new cell state of the argument arrays. -/
theorem final_c (c : Dev nD) : (dats m 0 c).arrAt 11 cfg0.N = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 11 (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (fun t _ => cell_flushed m c t) cover_c

/-- The kernel's run, read: every weakly fair execution ends with the two result arrays at the specification of the
    argument arrays, the arguments unchanged. -/
theorem run : θ_run defs (onTc (τ := τ) (main (F := Ideal))) ⟨m, fun _ => 0, ρ⟩ fun r => ∀ c : Dev nD,
      r.2.mem ((c : Thread nD τ).loc main_v5_0) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v5_1) = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_h m c), (h c).2.1.trans (final_c m c), (h c).2.2⟩)
    (Value.run_blocks m ρ)

end Cert.KernelIdeal.ArrayValue

end
-- ==== Proof.RefIsSpec.lean ====
/-
  The reference computes the specification.

  Its gate pre-activations are the four whole-batch matrix products added from the left, plus the bias laid as a row and
  spread over the 4096 examples; entry (r, g) is `TrackerSpec.gate … r g` (`gates_apply`). The four gate chunks are
  the column slices at 0, 1024, 2048 and 3072, the logistic function is spelled 1 / (1 + e^(−z)) with the word of 1.0, and
  the two results are `TrackerSpec.cell` and `TrackerSpec.hidden` entry by entry (`cell_eq`, `hidden_eq`).
-/
import proofs.«112116_j37014028157116_2_alg».proof.Proof.Gen.ReferenceIdeal.Read
import proofs.«112116_j37014028157116_2_alg».proof.Proof.TrackerSpec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
open Cert.TrackerSpec

variable (x0 x1 x2 x3 x4 : (⟨S4096x1024, .f32⟩ : BufTy).Contents (Elt Ideal))
variable (x5 x6 x7 x8 : (⟨S1024x4096, .f32⟩ : BufTy).Contents (Elt Ideal))
variable (x9 : (⟨S4096, .f32⟩ : BufTy).Contents (Elt Ideal))

/-- Entry (r, g) of the pre-activations: the four products' sums over the contracted coordinate, added from the left, plus
    the bias's entry g. -/
theorem gates_apply (j : S4096x4096.Idx) :
    val_main_v9 (F := Ideal) x0 x1 x2 x3 x5 x6 x7 x8 x9 j = gate x0 x1 x2 x3 x5 x6 x7 x8 x9 (j 0) (j 1) := by
  have el0 : ∀ k : Fin 1024, lidx_main_v0 j k = ix2 (j 0) k := fun k =>
    funext fun a => match a with | ⟨0, _⟩ => rfl | ⟨1, _⟩ => rfl
  have er0 : ∀ k : Fin 1024, ridx_main_v0 j k = ix2 k (j 1) := fun k =>
    funext fun a => match a with | ⟨0, _⟩ => rfl | ⟨1, _⟩ => rfl
  have el1 : ∀ k : Fin 1024, lidx_main_v1 j k = ix2 (j 0) k := fun k =>
    funext fun a => match a with | ⟨0, _⟩ => rfl | ⟨1, _⟩ => rfl
  have er1 : ∀ k : Fin 1024, ridx_main_v1 j k = ix2 k (j 1) := fun k =>
    funext fun a => match a with | ⟨0, _⟩ => rfl | ⟨1, _⟩ => rfl
  have el2 : ∀ k : Fin 1024, lidx_main_v3 j k = ix2 (j 0) k := fun k =>
    funext fun a => match a with | ⟨0, _⟩ => rfl | ⟨1, _⟩ => rfl
  have er2 : ∀ k : Fin 1024, ridx_main_v3 j k = ix2 k (j 1) := fun k =>
    funext fun a => match a with | ⟨0, _⟩ => rfl | ⟨1, _⟩ => rfl
  have el3 : ∀ k : Fin 1024, lidx_main_v5 j k = ix2 (j 0) k := fun k =>
    funext fun a => match a with | ⟨0, _⟩ => rfl | ⟨1, _⟩ => rfl
  have er3 : ∀ k : Fin 1024, ridx_main_v5 j k = ix2 k (j 1) := fun k =>
    funext fun a => match a with | ⟨0, _⟩ => rfl | ⟨1, _⟩ => rfl
  have eb : idx_main_v7 (idx_main_v8 j) = ix1 (j 1) := funext fun a => match a with | ⟨0, _⟩ => rfl
  rw [val_main_v9_apply, val_main_v6_apply, val_main_v4_apply, val_main_v2_apply, val_main_v0_apply, val_main_v1_apply,
    val_main_v3_apply, val_main_v5_apply, val_main_v8_apply, val_main_v7_apply, eb]
  simp only [el0, er0, el1, er1, el2, er2, el3, er3]
  rfl

/-- The pre-activation read where a column slice at offset `off` puts it. -/
theorem gate_at (i : S4096x1024.Idx) (j : S4096x4096.Idx) (off : ℕ) (h : off + 1024 ≤ 4096)
    (h0 : (j 0).val = (i 0).val) (h1 : (j 1).val = (i 1).val + off) :
    val_main_v9 (F := Ideal) x0 x1 x2 x3 x5 x6 x7 x8 x9 j = gate x0 x1 x2 x3 x5 x6 x7 x8 x9 (i 0) (col off h (i 1)) := by
  have e0 : j 0 = i 0 := Fin.ext h0
  have e1 : j 1 = col off h (i 1) := Fin.ext h1
  rw [gates_apply, e0, e1]

/-- The reference's second result is the new cell state. -/
theorem cell_eq : val_main_v29 (F := Ideal) x0 x1 x2 x3 x4 x5 x6 x7 x8 x9 = cell x0 x1 x2 x3 x4 x5 x6 x7 x8 x9 := by
  funext i
  rw [val_main_v29_apply, val_main_v21_apply, val_main_v14_apply, val_main_v10_apply, val_main_v20_apply,
    val_main_v19_apply, val_main_cst_0_apply, val_main_v18_apply, val_main_v17_apply, val_main_cst_apply,
    val_main_v16_apply, val_main_v15_apply, val_main_v11_apply, val_main_v28_apply, val_main_v27_apply,
    val_main_v26_apply, val_main_cst_2_apply, val_main_v25_apply, val_main_v24_apply, val_main_cst_1_apply,
    val_main_v23_apply, val_main_v22_apply, val_main_v12_apply,
    gate_at x0 x1 x2 x3 x5 x6 x7 x8 x9 i (idx_main_v10 i) 0 (by decide) rfl rfl,
    gate_at x0 x1 x2 x3 x5 x6 x7 x8 x9 i (idx_main_v11 i) 1024 (by decide) rfl (Nat.add_comm _ _),
    gate_at x0 x1 x2 x3 x5 x6 x7 x8 x9 i (idx_main_v12 i) 2048 (by decide) rfl (Nat.add_comm _ _)]
  simp only [Ideal.mulf_def, Ideal.addf_def, Ideal.hostDivf_def, Ideal.hostUnary_exp_def, Ideal.hostUnary_tanh_def,
    Ideal.hostNegf_def, Ideal.negf_def, Ideal.ofBits_def, Ideal.ofBits_one_f32]
  rfl

/-- The reference's first result is the new hidden state. -/
theorem hidden_eq : val_main_v37 (F := Ideal) x0 x1 x2 x3 x4 x5 x6 x7 x8 x9 = hidden x0 x1 x2 x3 x4 x5 x6 x7 x8 x9 := by
  funext i
  rw [val_main_v37_apply, val_main_v35_apply, val_main_v34_apply, val_main_cst_4_apply, val_main_v33_apply,
    val_main_v32_apply, val_main_cst_3_apply, val_main_v31_apply, val_main_v30_apply, val_main_v13_apply,
    val_main_v36_apply, cell_eq,
    gate_at x0 x1 x2 x3 x5 x6 x7 x8 x9 i (idx_main_v13 i) 3072 (by decide) rfl (Nat.add_comm _ _)]
  simp only [Ideal.mulf_def, Ideal.addf_def, Ideal.hostDivf_def, Ideal.hostUnary_exp_def, Ideal.hostUnary_tanh_def,
    Ideal.hostNegf_def, Ideal.negf_def, Ideal.ofBits_def, Ideal.ofBits_one_f32]
  rfl

end Cert.ReferenceIdeal.RefValue

end
-- ==== Proof.lean ====
/-
  One step of a tracker LSTM cell: a kernel over blocks of 64 examples against the whole-batch reference.

  Both programs compute, from four activation arrays, four weight matrices, a bias and the previous cell state,
      gates = x0·w0 + x1·w1 + x2·w2 + x3·w3 + bias        (four matrix products added from the left, the bias last),
      c'    = tanh(a)·σ(i) + σ(f)·c,      h' = σ(o)·tanh(c'),
  with a, i, f, o the four chunks of 1024 gate columns. On the extended reals the kernel's narrowing of its operands is
  the identity, its matrix products into zero accumulators and the reference's dot products are the same sums over the
  contracted coordinate, and the kernel's logistic operation is the reference's 1 / (1 + e^(−z)); nothing is reassociated
  or distributed, so no finiteness of the inputs is used.

  `Proof/TrackerSpec.lean` states the two results as functions of the argument arrays; `Proof/RefIsSpec.lean` shows
  the reference computes them; `Proof/GateBlock.lean` and `Proof/BlockIsSpec.lean` show that one grid point stores them
  on its 64 rows; `Proof/KernelArrays.lean` puts the 64 blocks together. The three frames are the generated ones
  (the reference's is its generated run with the results dropped), and the idealization rewrote nothing.
-/
import proofs.«112116_j37014028157116_2_alg».proof.Defs
import proofs.«112116_j37014028157116_2_alg».proof.Proof.Gen.Kernel
import proofs.«112116_j37014028157116_2_alg».proof.Proof.Gen.Kernel.Skeleton
import proofs.«112116_j37014028157116_2_alg».proof.Proof.Gen.Kernel.Launch
import proofs.«112116_j37014028157116_2_alg».proof.Proof.Gen.Kernel.Points
import proofs.«112116_j37014028157116_2_alg».proof.Proof.Gen.Kernel.Frame
import proofs.«112116_j37014028157116_2_alg».proof.Proof.Gen.KernelIdeal
import proofs.«112116_j37014028157116_2_alg».proof.Proof.Gen.KernelIdeal.Skeleton
import proofs.«112116_j37014028157116_2_alg».proof.Proof.Gen.KernelIdeal.Launch
import proofs.«112116_j37014028157116_2_alg».proof.Proof.Gen.KernelIdeal.Points
import proofs.«112116_j37014028157116_2_alg».proof.Proof.Gen.KernelIdeal.Frame
import proofs.«112116_j37014028157116_2_alg».proof.Proof.Gen.ReferenceIdeal
import proofs.«112116_j37014028157116_2_alg».proof.Proof.Gen.Pre_finite_inputs
import proofs.«112116_j37014028157116_2_alg».proof.Proof.Gen.KernelIdeal.Value
import proofs.«112116_j37014028157116_2_alg».proof.Proof.Gen.ReferenceIdeal.Run
import proofs.«112116_j37014028157116_2_alg».proof.Proof.Gen.ReferenceIdeal.Read
import proofs.«112116_j37014028157116_2_alg».proof.Proof.KernelArrays
import proofs.«112116_j37014028157116_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the new hidden state and the new cell state of the argument arrays, entry by entry. -/
theorem algebraic : Cert.algebraic_KernelIdeal_ReferenceIdeal := by
  intro m ρ m' ρ' _ hagree
  refine ⟨fun c => Cert.TrackerSpec.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.TrackerSpec.cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v37_eq, Cert.ReferenceIdeal.RefValue.hidden_eq, a0, a1, a2, a3, a4, a5, a6, a7, a8, a9]
  · obtain ⟨a0, a1, a2, a3, a4, a5, a6, a7, a8, a9⟩ := hagree c
    rw [Cert.ReferenceIdeal.Read.val_main_v29_eq, Cert.ReferenceIdeal.RefValue.cell_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
